-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x2048, .f32⟩
  | .local _ .vmem, ⟨7, _⟩ => ⟨S1x256x2048, .f32⟩
  | .local _ .vmem, ⟨8, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2048x1024.size a
  hwx0_2 : ∀ i : grid0.Coords, EltTy.bits .f32 = 32 ∨ (Rect.block (s := S8x2048x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BlockReads.lean ====
/-
  The grid of the attention kernel is 8 batches × 8 query tiles, visited in row-major order: point t is tile t % 8 of
  batch t / 8.  At point t the query window holds rows 256·(t % 8) … 256·(t % 8) + 255 of batch t / 8 of the first
  argument, and the key/value window holds all 2048 rows of batch t / 8 of the second argument; the two output windows
  sit where the query window sits.
-/
import proofs.«136890_j17815524344562_2_alg».proof.Proof.Gen.KernelIdeal.Frame
import Idealize.ShloMosaic.Lib.Pipeline.Value
import Idealize.ShloMosaic.Lib.ValueIdx

noncomputable section

namespace Cert.KernelIdeal.AttnValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four windows' block indices at point t, decided over the 64 points: batch t / 8 on the first axis; tile t % 8
    on the second axis of the query window and of both output windows, 0 for the key/value window; 0 on the last. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- The query block at point t, at (0, r, d), is the first argument at (t / 8, 256·(t % 8) + r, d). -/
theorem query_read (c : Dev nD) (t : Fin cfg0.N) (r : Fin 256) (d : Fin 1024) (b : Fin 8) (r' : Fin 2048)
    (hb : b.val = t.val / 8) (hr : r'.val = t.val % 8 * 256 + r.val) :
    (iblk m c 0 t : Vec F S1x256x1024 .f32) (ix3 (0 : Fin 1) r d) = V m c main_arg0 (ix3 b r' d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = r'.val; omega
  | ⟨2, _⟩ => show win0_0.index t (2 : Fin 3) * 1024 + 1 * d.val = d.val; omega

/-- The key/value block at point t, at (0, k, d), is the second argument at (t / 8, k, d). -/
theorem keys_read (c : Dev nD) (t : Fin cfg0.N) (k : Fin 2048) (d : Fin 1024) (b : Fin 8) (hb : b.val = t.val / 8) :
    (iblk m c 1 t : Vec F S1x2048x1024 .f32) (ix3 (0 : Fin 1) k d) = V m c main_arg1 (ix3 b k d) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 1024 + 1 * d.val = d.val; omega

end Cert.KernelIdeal.AttnValue

end
-- ==== Proof.Pieces.lean ====
/-
  What each control case of the attention body leaves in its two output blocks and in the carried key/value buffer,
  as the body's arithmetic applied to the blocks it loaded.

  At a point that opens a batch (the second grid coordinate is 0) the body first overwrites the carried buffer with the
  key/value block in the narrow float format, then computes the attention weights of the query block against the
  key/value block, stores them, and stores their product with the buffer it has just written.  At every other point it
  leaves the carried buffer alone and multiplies the weights with what the buffer held on entry.
-/
import proofs.«136890_j17815524344562_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset vector of a store or load at the origin of a rank-3 block is the zero function. -/
private theorem origin3 : (![0, 0, 0] : Fin 3 → ℕ) = fun _ => 0 := by funext a; fin_cases a <;> rfl

/-- The same for the rank-2 carried buffer. -/
private theorem origin2 : (![0, 0] : Fin 2 → ℕ) = fun _ => 0 := by funext a; fin_cases a <;> rfl

/-- Opening a batch, the carried buffer ends at the key/value block narrowed. -/
theorem scratch_open (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x256x1024 .f32) (harg4 : arg4.IsWhole) (arg5 : Memref sig .tc .vmem S1x256x2048 .f32) (harg5 : arg5.IsWhole) (arg6 : Memref sig .tc .vmem S2048x1024 .bf16) (harg6 : arg6.IsWhole) (hc0 : cond0_0 i)
    (x0 : Vec F S1x256x1024 .f32) (x1 : Vec F S1x2048x1024 .f32) :
    sout0_A_0 c i arg2 harg2 arg3 harg3 arg4 harg4 arg5 harg5 arg6 harg6 hc0 x0 x1 = k0_pay1 x1 := by
  -- One store covers the whole buffer, so the buffer reads back as that store's payload; the payload's argument is
  -- a load of the whole key/value block, which reads the block.
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero origin2]
  simp only [View.readAt_eq_ld, harg3.read_unread, View.ld_unit_zero (S := S1x2048x1024) origin3]

/-- Opening a batch, the attention-weight block is the weights of the query block against the key/value block. -/
theorem weights_open (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x256x1024 .f32) (harg4 : arg4.IsWhole) (arg5 : Memref sig .tc .vmem S1x256x2048 .f32) (harg5 : arg5.IsWhole) (arg6 : Memref sig .tc .vmem S2048x1024 .bf16) (harg6 : arg6.IsWhole) (hc0 : cond0_0 i)
    (x0 : Vec F S1x256x1024 .f32) (x1 : Vec F S1x2048x1024 .f32) :
    out0_A_3 c i arg2 harg2 arg3 harg3 arg4 harg4 arg5 harg5 arg6 harg6 hc0 x0 x1 = k0_pay3 x0 x1 := by
  -- One covering store; its payload takes whole-block loads of the query block and the key/value block.
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_unit_zero origin3]
  simp only [View.readAt_eq_ld, harg2.read_unread, harg3.read_unread, View.ld_unit_zero (S := S1x256x1024) origin3,
    View.ld_unit_zero (S := S1x2048x1024) origin3]

/-- Opening a batch, the context block is the weights times the buffer just written. -/
theorem context_open (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x256x1024 .f32) (harg4 : arg4.IsWhole) (arg5 : Memref sig .tc .vmem S1x256x2048 .f32) (harg5 : arg5.IsWhole) (arg6 : Memref sig .tc .vmem S2048x1024 .bf16) (harg6 : arg6.IsWhole) (hc0 : cond0_0 i)
    (x0 : Vec F S1x256x1024 .f32) (x1 : Vec F S1x2048x1024 .f32) :
    out0_A_2 c i arg2 harg2 arg3 harg3 arg4 harg4 arg5 harg5 arg6 harg6 hc0 x0 x1 = k0_pay4 x0 x1 (k0_pay1 x1) := by
  -- One covering store; its payload's third argument is a whole-buffer load of the carried buffer after the one
  -- covering store into it, which reads that store's payload: the key/value block narrowed.
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero origin3, View.readCov_unit_zero (S := S2048x1024) _ origin2]
  simp only [View.readAt_eq_ld, harg2.read_unread, harg3.read_unread, View.ld_unit_zero (S := S1x256x1024) origin3,
    View.ld_unit_zero (S := S1x2048x1024) origin3]

/-- Inside a batch, the attention-weight block is again the weights of the query block against the key/value block. -/
theorem weights_inside (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x256x1024 .f32) (harg4 : arg4.IsWhole) (arg5 : Memref sig .tc .vmem S1x256x2048 .f32) (harg5 : arg5.IsWhole) (arg6 : Memref sig .tc .vmem S2048x1024 .bf16) (harg6 : arg6.IsWhole) (hc0 : ¬cond0_0 i)
    (x0 : Vec F S1x256x1024 .f32) (x1 : Vec F S1x2048x1024 .f32) (xs0 : Vec F S2048x1024 .bf16) :
    out0_B_3 c i arg2 harg2 arg3 harg3 arg4 harg4 arg5 harg5 arg6 harg6 hc0 x0 x1 xs0 = k0_pay3 x0 x1 := by
  -- One covering store; its payload takes whole-block loads of the query block and the key/value block.
  unfold out0_B_3
  rw [View.read_writes_eq_canon _ _ _ (cover0_B_3 c i arg2 harg2 arg3 harg3 arg4 harg4 arg5 harg5 arg6 harg6 hc0 x0 x1 xs0)]
  unfold kernelRun0_B
  dsimp only
  sl_unfold_words
  rw [View.canon_unit_zero origin3]
  simp only [View.readAt_eq_ld, harg2.read_unread, harg3.read_unread, View.ld_unit_zero (S := S1x256x1024) origin3,
    View.ld_unit_zero (S := S1x2048x1024) origin3]

/-- Inside a batch, the context block is the weights times what the carried buffer held on entry. -/
theorem context_inside (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x256x1024 .f32) (harg4 : arg4.IsWhole) (arg5 : Memref sig .tc .vmem S1x256x2048 .f32) (harg5 : arg5.IsWhole) (arg6 : Memref sig .tc .vmem S2048x1024 .bf16) (harg6 : arg6.IsWhole) (hc0 : ¬cond0_0 i)
    (x0 : Vec F S1x256x1024 .f32) (x1 : Vec F S1x2048x1024 .f32) (xs0 : Vec F S2048x1024 .bf16) :
    out0_B_2 c i arg2 harg2 arg3 harg3 arg4 harg4 arg5 harg5 arg6 harg6 hc0 x0 x1 xs0 = k0_pay4 x0 x1 xs0 := by
  -- One covering store; its payload's third argument is a whole-buffer load of the carried buffer, untouched in this
  -- case, which reads the contents it held on entry.
  unfold out0_B_2
  rw [View.read_writes_eq_canon _ _ _ (cover0_B_2 c i arg2 harg2 arg3 harg3 arg4 harg4 arg5 harg5 arg6 harg6 hc0 x0 x1 xs0)]
  unfold kernelRun0_B
  dsimp only
  sl_unfold_words
  rw [View.canon_unit_zero origin3]
  simp only [View.readAt_eq_ld, harg2.read_unread, harg3.read_unread, harg6.read_unread,
    View.ld_unit_zero (S := S1x256x1024) origin3, View.ld_unit_zero (S := S1x2048x1024) origin3,
    View.ld_unit_zero (S := S2048x1024) origin2]

end Cert.KernelIdeal.Pieces

end
-- ==== Proof.RowAttention.lean ====
/-
  Unscaled dot-product attention on the extended reals, one query row at a time.

  For a query row `q : Fin 1024 → EReal` and keys `K : Fin 2048 → Fin 1024 → EReal`:
    score k   = ∑ d, q d · K k d                    (the logits)
    rowMax    = max over k of score k, from −∞       (the softmax's shift)
    weight k  = exp (score k − rowMax)
    rowSum    = ∑ k, weight k
    align k   = weight k / rowSum                    (the attention weights)
    context d = ∑ k, align k · V k d                 (the weighted sum of the values)
  and the two whole arrays a batch of such rows gives: `Align Q KV` at (b, r, k) is `align` of row r of batch b of `Q`
  against the keys of batch b of `KV`, and `Context Q KV` at (b, r, d) its `context` with the same `KV` as values.
-/
import Idealize.ShloMosaic.PureOps.Ideal.Laws
import Idealize.ShloMosaic.Lib.ValueIdx

noncomputable section

namespace Cert.RowAttention

open Idealize.ShloMosaic Idealize.ShloMosaic.ValueIdx

/-- The logit of query row `q` against key `k`: their inner product over the 1024 features. -/
def score (q : Fin 1024 → EReal) (K : Fin 2048 → Fin 1024 → EReal) (k : Fin 2048) : EReal :=
  ∑ d : Fin 1024, q d * K k d

/-- The row's largest logit: the maximum over the 2048 keys, folded from −∞ (the word `0xFF800000`). -/
def rowMax (q : Fin 1024 → EReal) (K : Fin 2048 → Fin 1024 → EReal) : EReal :=
  (Finset.univ : Finset (Fin 2048)).fold max (Ideal.ofBits .f32 0xFF800000#32) (score q K)

/-- The unnormalised softmax weight of key `k`: the exponential of the logit shifted by the row's maximum. -/
def weight (q : Fin 1024 → EReal) (K : Fin 2048 → Fin 1024 → EReal) (k : Fin 2048) : EReal :=
  Ideal.exp (score q K k - rowMax q K)

/-- The softmax's denominator: the sum of the row's weights. -/
def rowSum (q : Fin 1024 → EReal) (K : Fin 2048 → Fin 1024 → EReal) : EReal :=
  ∑ k : Fin 2048, weight q K k

/-- The attention weight of key `k`: its weight over the row's sum. -/
def align (q : Fin 1024 → EReal) (K : Fin 2048 → Fin 1024 → EReal) (k : Fin 2048) : EReal :=
  Ideal.div (weight q K k) (rowSum q K)

/-- Feature `d` of the row's context vector: the values' feature `d` averaged with the attention weights. -/
def context (q : Fin 1024 → EReal) (K V : Fin 2048 → Fin 1024 → EReal) (d : Fin 1024) : EReal :=
  ∑ k : Fin 2048, align q K k * V k d

/-- Row `r` of batch `b` of a [8, 2048, 1024] array, as a function of the feature. -/
def rowOf (X : (⟨3, ![8, 2048, 1024]⟩ : Shape).Idx → EReal) (b : Fin 8) (r : Fin 2048) : Fin 1024 → EReal :=
  fun d => X (ix3 b r d)

/-- Batch `b` of a [8, 2048, 1024] array, as a matrix of rows and features. -/
def batchOf (X : (⟨3, ![8, 2048, 1024]⟩ : Shape).Idx → EReal) (b : Fin 8) : Fin 2048 → Fin 1024 → EReal :=
  fun k d => X (ix3 b k d)

/-- The attention weights of every query row of every batch: [8, 2048, 2048]. -/
def Align (Q KV : (⟨3, ![8, 2048, 1024]⟩ : Shape).Idx → EReal) : (⟨3, ![8, 2048, 2048]⟩ : Shape).Idx → EReal :=
  fun i => align (rowOf Q (i 0) (i 1)) (batchOf KV (i 0)) (i 2)

/-- The context vectors of every query row of every batch: [8, 2048, 1024]. -/
def Context (Q KV : (⟨3, ![8, 2048, 1024]⟩ : Shape).Idx → EReal) : (⟨3, ![8, 2048, 1024]⟩ : Shape).Idx → EReal :=
  fun i => context (rowOf Q (i 0) (i 1)) (batchOf KV (i 0)) (batchOf KV (i 0)) (i 2)

theorem Align_apply (Q KV : (⟨3, ![8, 2048, 1024]⟩ : Shape).Idx → EReal) (b : Fin 8) (r k : Fin 2048) :
    Align Q KV (ix3 b r k) = align (rowOf Q b r) (batchOf KV b) k := rfl

theorem Context_apply (Q KV : (⟨3, ![8, 2048, 1024]⟩ : Shape).Idx → EReal) (b : Fin 8) (r : Fin 2048) (d : Fin 1024) :
    Context Q KV (ix3 b r d) = context (rowOf Q b r) (batchOf KV b) (batchOf KV b) d := rfl

/-- The maximum of −∞ and the row's largest logit is the row's largest logit: a fold of `max` is at least its
    starting value. -/
theorem max_init_rowMax (q : Fin 1024 → EReal) (K : Fin 2048 → Fin 1024 → EReal) :
    max (Ideal.ofBits .f32 0xFF800000#32) (rowMax q K) = rowMax q K :=
  max_eq_right ((Finset.le_fold_max _).mpr (Or.inl le_rfl))

end Cert.RowAttention

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.Payload.lean ====
/-
  The attention body's arithmetic read at an index, on the extended reals.

  The body works on one block of 256 query rows `Q` ([1, 256, 1024]) and the whole key/value block `KV`
  ([1, 2048, 1024]) of one batch.  Its weight matrix at (r, k) is the softmax weight of key k for query row r —
  `RowAttention.align` of row r of `Q` against the rows of `KV` —, and its context block at (r, d) is the sum over the
  keys of those weights times the carried value buffer at (k, d).  A change of float format is the identity here, so the
  narrowed copy of `KV` is `KV` itself.
-/
import proofs.«136890_j17815524344562_2_alg».proof.Proof.Gen.KernelIdeal.Skeleton
import proofs.«136890_j17815524344562_2_alg».proof.Proof.RowAttention
import proofs.«136890_j17815524344562_2_alg».proof.Proof.LibColumnForms
import proofs.«136890_j17815524344562_2_alg».proof.Proof.LibHostMaxForms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.RowAttention

/-- Row `r` of a [1, 256, 1024] query block. -/
def qRow (x0 : Vec Ideal S1x256x1024 .f32) (r : Fin 256) : Fin 1024 → EReal := fun d => x0 (ix3 (0 : Fin 1) r d)

/-- A [1, 2048, 1024] key/value block as a matrix of rows and features. -/
def kvMat (x1 : Vec Ideal S1x2048x1024 .f32) : Fin 2048 → Fin 1024 → EReal := fun k d => x1 (ix3 (0 : Fin 1) k d)

/-- The carried [2048, 1024] buffer as a matrix of rows and features. -/
def bufMat (xs : Vec Ideal S2048x1024 .bf16) : Fin 2048 → Fin 1024 → EReal := fun k d => xs (ix2 k d)

/-! ### One small fact per non-pointwise operation, at explicit coordinates -/

/-- A vector of 256 entries cast to a column [256, 1] and broadcast over 2048 lanes reads, at (r, k), the vector's
    entry r. -/
private theorem column_apply (c : FVec Ideal S256 .f32) (r : Fin 256) (k : Fin 2048) :
    broadcastTo S256x2048 (shapeCast S256x1 c Facts₀.shapeCasts_S256_S256x1) Facts₀.broadcasts_S256x1_S256x2048 (ix2 r k)
      = c (ix1 r) :=
  (ValueLayout.broadcastTo_a1_ab_apply _ _ r k).trans (ValueLayout.shapeCast_a_a1_apply c _ r (0 : Fin 1))

/-- The lane maximum of a [256, 2048] matrix from the word 0xFF800000, at row r: the fold of `max` over the row. -/
private theorem laneMax_apply (v : FVec Ideal S256x2048 .f32) (r : Fin 256) :
    multiReduction (F := Ideal) .maximumf [1] S256 v 0xFF800000#32 Facts₀.reduces_S256x2048_S256 (.inl rfl) rfl (ix1 r)
      = (Finset.univ : Finset (Fin 2048)).fold max (Ideal.ofBits .f32 0xFF800000#32) fun k => v (ix2 r k) := by
  refine (Ideal.multiReduction_maximumf_single v 0xFF800000#32 Facts₀.reduces_S256x2048_S256 (.inl rfl) rfl (ix1 r)).trans ?_
  exact congrArg (fun f : Fin 2048 → EReal => (Finset.univ : Finset (Fin 2048)).fold max (Ideal.ofBits .f32 0xFF800000#32) f)
    (funext fun k => congrArg v (lift2_last Facts₀.reduces_S256x2048_S256 r k))

/-- The lane sum of a [256, 2048] matrix from the zero word, at row r: the sum over the row. -/
private theorem laneSum_apply (v : FVec Ideal S256x2048 .f32) (r : Fin 256) :
    multiReduction (F := Ideal) .add [1] S256 v 0x00000000#32 Facts₀.reduces_S256x2048_S256 (.inl rfl) rfl (ix1 r)
      = ∑ k : Fin 2048, v (ix2 r k) := by
  refine (Ideal.multiReduction_add_single v 0x00000000#32 Facts₀.reduces_S256x2048_S256 (.inl rfl) rfl (ix1 r)).trans ?_
  exact Finset.sum_congr rfl fun k _ => congrArg v (lift2_last Facts₀.reduces_S256x2048_S256 r k)

/-- In the first product the left operand's row is the output's row. -/
private theorem logits_lhs_row (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl

/-- In the first product the right operand's row is the output's column. -/
private theorem logits_rhs_row (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl

/-- The first product: the query block against the key/value block, both with their leading unit axis dropped,
    contracting the feature axis of each into a zero accumulator.  At (r, k) it is the inner product of query row r
    with key row k. -/
private theorem logits_apply (x0 : FVec Ideal S1x256x1024 .f32) (x1 : FVec Ideal S1x2048x1024 .f32) (r : Fin 256) (k : Fin 2048) :
    matmul dot_S256x1024_S2048x1024_S256x2048_1_1_0_0_n_n (some .fp32)
        (shapeCast S256x1024 x0 Facts₀.shapeCasts_S1x256x1024_S256x1024)
        (shapeCast S2048x1024 x1 Facts₀.shapeCasts_S1x2048x1024_S2048x1024)
        (constant (F := Ideal) S256x2048 .f32 0x00000000#32) (ix2 r k)
      = score (qRow x0 r) (kvMat x1) k := by
  simp only [matmul]
  rw [Ideal.matmul_constant_zero_apply,
    ← Equiv.sum_comp (ValueIdx.contrEquiv1 dot_S256x1024_S2048x1024_S256x2048_1_1_0_0_n_n 1024 rfl rfl).symm]
  unfold score
  refine Finset.sum_congr rfl fun d _ => ?_
  have hd := ValueIdx.contrEquiv1_symm_val dot_S256x1024_S2048x1024_S256x2048_1_1_0_0_n_n 1024 rfl rfl d
  have el : dot_S256x1024_S2048x1024_S256x2048_1_1_0_0_n_n.lhsIdx (ix2 r k)
      ((ValueIdx.contrEquiv1 dot_S256x1024_S2048x1024_S256x2048_1_1_0_0_n_n 1024 rfl rfl).symm d) = ix2 r d :=
    funext fun a => Fin.ext (by
      match a with
      | ⟨0, _⟩ => exact logits_lhs_row _ _
      | ⟨1, _⟩ => exact (dot_S256x1024_S2048x1024_S256x2048_1_1_0_0_n_n.lhsIdx_val_of_single rfl _ _).trans hd)
  have er : dot_S256x1024_S2048x1024_S256x2048_1_1_0_0_n_n.rhsIdx (ix2 r k)
      ((ValueIdx.contrEquiv1 dot_S256x1024_S2048x1024_S256x2048_1_1_0_0_n_n 1024 rfl rfl).symm d) = ix2 k d :=
    funext fun a => Fin.ext (by
      match a with
      | ⟨0, _⟩ => exact logits_rhs_row _ _
      | ⟨1, _⟩ => exact (dot_S256x1024_S2048x1024_S256x2048_1_1_0_0_n_n.rhsIdx_val_of_single rfl _ _).trans hd)
  rw [el, er, shapeCast_1ab_ab_apply, shapeCast_1ab_ab_apply]
  rfl

/-- The softmax steps on any [256, 2048] matrix `L` whose entry (r, k) is the logit of key k for query row r: shift each
    row by its lane maximum, exponentiate, and divide by the row's lane sum.  At (r, k) the result is the attention
    weight of key k for row r. -/
private theorem softmax_apply (L : FVec Ideal S256x2048 .f32) (q : Fin 256 → Fin 1024 → EReal) (K : Fin 2048 → Fin 1024 → EReal)
    (hL : ∀ (r : Fin 256) (k : Fin 2048), L (ix2 r k) = score (q r) K k) (r : Fin 256) (k : Fin 2048) :
    divf
        (exp (subf L (broadcastTo S256x2048
          (shapeCast S256x1 (multiReduction (F := Ideal) .maximumf [1] S256 L 0xFF800000#32 Facts₀.reduces_S256x2048_S256 (.inl rfl) rfl)
            Facts₀.shapeCasts_S256_S256x1) Facts₀.broadcasts_S256x1_S256x2048)))
        (broadcastTo S256x2048
          (shapeCast S256x1
            (multiReduction (F := Ideal) .add [1] S256
              (exp (subf L (broadcastTo S256x2048
                (shapeCast S256x1 (multiReduction (F := Ideal) .maximumf [1] S256 L 0xFF800000#32 Facts₀.reduces_S256x2048_S256 (.inl rfl) rfl)
                  Facts₀.shapeCasts_S256_S256x1) Facts₀.broadcasts_S256x1_S256x2048)))
              0x00000000#32 Facts₀.reduces_S256x2048_S256 (.inl rfl) rfl)
            Facts₀.shapeCasts_S256_S256x1) Facts₀.broadcasts_S256x1_S256x2048)
        (ix2 r k)
      = align (q r) K k := by
  -- the row's lane maximum is the largest logit of the row
  have hmax : ∀ r : Fin 256,
      multiReduction (F := Ideal) .maximumf [1] S256 L 0xFF800000#32 Facts₀.reduces_S256x2048_S256 (.inl rfl) rfl (ix1 r)
        = rowMax (q r) K := fun r =>
    (laneMax_apply L r).trans (congrArg
      (fun f : Fin 2048 → EReal => (Finset.univ : Finset (Fin 2048)).fold max (Ideal.ofBits .f32 0xFF800000#32) f)
      (funext fun k => hL r k))
  -- the shifted and exponentiated matrix holds the unnormalised weights
  have hw : ∀ (r : Fin 256) (k : Fin 2048),
      exp (subf L (broadcastTo S256x2048
          (shapeCast S256x1 (multiReduction (F := Ideal) .maximumf [1] S256 L 0xFF800000#32 Facts₀.reduces_S256x2048_S256 (.inl rfl) rfl)
            Facts₀.shapeCasts_S256_S256x1) Facts₀.broadcasts_S256x1_S256x2048)) (ix2 r k)
        = weight (q r) K k := fun r k => by
    show Ideal.exp (L (ix2 r k) - broadcastTo S256x2048 _ _ (ix2 r k)) = _
    rw [column_apply, hmax, hL]
    rfl
  -- the row's lane sum of those is the softmax's denominator
  have hsum : ∀ r : Fin 256,
      multiReduction (F := Ideal) .add [1] S256
          (exp (subf L (broadcastTo S256x2048
            (shapeCast S256x1 (multiReduction (F := Ideal) .maximumf [1] S256 L 0xFF800000#32 Facts₀.reduces_S256x2048_S256 (.inl rfl) rfl)
              Facts₀.shapeCasts_S256_S256x1) Facts₀.broadcasts_S256x1_S256x2048)))
          0x00000000#32 Facts₀.reduces_S256x2048_S256 (.inl rfl) rfl (ix1 r)
        = rowSum (q r) K := fun r =>
    (laneSum_apply _ r).trans (Finset.sum_congr rfl fun k _ => hw r k)
  rw [divf_apply, column_apply, hsum, hw]
  rfl

/-- In the second product the left operand's row is the output's row. -/
private theorem context_lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

/-- In the second product the right operand's column is the output's column. -/
private theorem context_rhs_col (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- The second product: a [256, 2048] matrix `W` against the [2048, 1024] buffer, contracting the keys (the columns of
    `W`, the rows of the buffer) into a zero accumulator.  At (r, d) it is the sum over the keys of `W` at (r, k) times the
    buffer at (k, d). -/
private theorem product_apply (W : FVec Ideal S256x2048 .bf16) (xs : FVec Ideal S2048x1024 .bf16) (r : Fin 256) (d : Fin 1024) :
    matmul dot_S256x2048_S2048x1024_S256x1024_1_0_0_1_n_n none W xs (constant (F := Ideal) S256x1024 .f32 0x00000000#32) (ix2 r d)
      = ∑ k : Fin 2048, W (ix2 r k) * xs (ix2 k d) := by
  simp only [matmul]
  rw [Ideal.matmul_constant_zero_apply,
    ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 r d)
      ((ValueIdx.contrEquiv1 dot_S256x2048_S2048x1024_S256x1024_1_0_0_1_n_n 2048 rfl rfl).symm k) = ix2 r k :=
    funext fun a => Fin.ext (by
      match a with
      | ⟨0, _⟩ => exact context_lhs_row _ _
      | ⟨1, _⟩ => exact (dot_S256x2048_S2048x1024_S256x1024_1_0_0_1_n_n.lhsIdx_val_of_single rfl _ _).trans hk)
  have er : dot_S256x2048_S2048x1024_S256x1024_1_0_0_1_n_n.rhsIdx (ix2 r d)
      ((ValueIdx.contrEquiv1 dot_S256x2048_S2048x1024_S256x1024_1_0_0_1_n_n 2048 rfl rfl).symm k) = ix2 k d :=
    funext fun a => Fin.ext (by
      match a with
      | ⟨0, _⟩ => exact (dot_S256x2048_S2048x1024_S256x1024_1_0_0_1_n_n.rhsIdx_val_of_single rfl _ _).trans hk
      | ⟨1, _⟩ => exact context_rhs_col _ _)
  rw [el, er]

/-- The narrowed key/value block at (k, d) is the block at (0, k, d). -/
theorem narrowed_apply (x1 : Vec Ideal S1x2048x1024 .f32) (k : Fin 2048) (d : Fin 1024) :
    k0_pay1 (F := Ideal) x1 (ix2 k d) = x1 (ix3 (0 : Fin 1) k d) := by
  unfold k0_pay1
  refine (congrFun (shapeCast_self _ _) (ix2 k d)).trans ?_
  exact shapeCast_1ab_ab_apply x1 _ k d

/-- The weight matrix at (r, k) is the attention weight of key k for query row r. -/
theorem weights_apply (x0 : Vec Ideal S1x256x1024 .f32) (x1 : Vec Ideal S1x2048x1024 .f32) (r : Fin 256) (k : Fin 2048) :
    k0_pay2 (F := Ideal) x0 x1 (ix2 r k) = align (qRow x0 r) (kvMat x1) k := by
  unfold k0_pay2
  exact softmax_apply _ (qRow x0) (kvMat x1) (logits_apply x0 x1) r k

/-- The stored weight block at (0, r, k) is the weight matrix at (r, k). -/
theorem weights_block_apply (x0 : Vec Ideal S1x256x1024 .f32) (x1 : Vec Ideal S1x2048x1024 .f32) (r : Fin 256) (k : Fin 2048) :
    k0_pay3 (F := Ideal) x0 x1 (ix3 (0 : Fin 1) r k) = align (qRow x0 r) (kvMat x1) k := by
  unfold k0_pay3
  exact (shapeCast_ab_1ab_apply _ _ (0 : Fin 1) r k).trans (weights_apply x0 x1 r k)

/-- The stored context block at (0, r, d) is the context of query row r with the carried buffer as values. -/
theorem context_block_apply (x0 : Vec Ideal S1x256x1024 .f32) (x1 : Vec Ideal S1x2048x1024 .f32) (xs : Vec Ideal S2048x1024 .bf16)
    (r : Fin 256) (d : Fin 1024) :
    k0_pay4 (F := Ideal) x0 x1 xs (ix3 (0 : Fin 1) r d) = context (qRow x0 r) (kvMat x1) (bufMat xs) d := by
  unfold k0_pay4
  refine (shapeCast_ab_1ab_apply _ _ (0 : Fin 1) r d).trans ?_
  refine (product_apply _ xs r d).trans ?_
  unfold context
  refine Finset.sum_congr rfl fun k _ => ?_
  exact congrArg (· * xs (ix2 k d)) (weights_apply x0 x1 r k)

end Cert.KernelIdeal.Payload

end
-- ==== Proof.AttnValue.lean ====
/-
  The attention kernel's two result arrays, on the extended reals, are `RowAttention.Context` and
  `RowAttention.Align` of its two arguments.

  Point t of the grid (tile t % 8 of batch t / 8) computes, for each of its 256 query rows, the attention weights
  against all 2048 keys of the batch and stores them; it then multiplies them with a carried copy of the batch's
  key/value block.  That copy is written at the first tile of each batch and kept for the other seven, so after EVERY
  point it equals the key/value block of the point's own batch (`carried_eq`, by induction along the grid: tile 0
  writes it, and a later tile finds what the tile before left, which belongs to the same batch).  Hence every point
  writes back block t of the two whole-array functions, and the 64 blocks tile both result arrays.
-/
import proofs.«136890_j17815524344562_2_alg».proof.Proof.Gen.KernelIdeal.Value
import proofs.«136890_j17815524344562_2_alg».proof.Proof.BlockReads
import proofs.«136890_j17815524344562_2_alg».proof.Proof.Pieces
import proofs.«136890_j17815524344562_2_alg».proof.Proof.Payload
import proofs.«136890_j17815524344562_2_alg».proof.Proof.RowAttention

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.ValueIdx Cert.RowAttention Cert.KernelIdeal.Payload
open Idealize.ShloMosaic.Pipeline (Dat)

variable (m : (ℓ : Loc nD τ sig) → Buf (Elt Ideal) ℓ) (ρ : Dev nD → PrngReg)

/-! ## What a point leaves -/

/-- After the body at point t the weight block is the weights of the point's query block against its key/value block,
    and the context block is those weights times the carried buffer as the point leaves it — at a batch's first tile
    the copy just written, at a later tile the copy found. -/
theorem point_outputs (c : Dev nD) (t : Fin cfg0.N) :
    (outsAt0 m c t.val t.isLt).1 = k0_pay4 (iblk m c 0 t) (iblk m c 1 t) (outsAt0 m c t.val t.isLt).2.2
    ∧ (outsAt0 m c t.val t.isLt).2.1 = k0_pay3 (iblk m c 0 t) (iblk m c 1 t) := by
  by_cases h0 : t.val % 8 = 0
  · rw [outsAt0_A m c t h0]
    dsimp only
    refine ⟨?_, Pieces.weights_open (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)⟩
    rw [Pieces.scratch_open (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)]
    exact Pieces.context_open (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)
  · rw [outsAt0_B m c t h0]
    dsimp only
    exact ⟨Pieces.context_inside (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2, Pieces.weights_inside (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2⟩

/-! ## The carried buffer -/

/-- After point n the carried buffer is the key/value block of batch n / 8. -/
theorem carried_eq (c : Dev nD) : ∀ (n : ℕ) (hn : n < cfg0.N) (b : Fin 8), b.val = n / 8 →
    bufMat (outsAt0 m c n hn).2.2 = batchOf (V m c main_arg1) b := by
  intro n
  induction n with
  | zero =>
    intro hn b hb
    have h0 : (⟨0, hn⟩ : Fin cfg0.N).val % 8 = 0 := rfl
    rw [outsAt0_A m c ⟨0, hn⟩ h0]
    dsimp only
    rw [Pieces.scratch_open (F := Ideal)]
    funext k d
    show k0_pay1 (F := Ideal) (iblk m c 1 ⟨0, hn⟩) (ix2 k d) = V m c main_arg1 (ix3 b k d)
    refine (narrowed_apply _ k d).trans ?_
    exact keys_read m c ⟨0, hn⟩ k d b hb
  | succ n ih =>
    intro hn b hb
    by_cases h0 : (⟨n + 1, hn⟩ : Fin cfg0.N).val % 8 = 0
    · rw [outsAt0_A m c ⟨n + 1, hn⟩ h0]
      dsimp only
      rw [Pieces.scratch_open (F := Ideal)]
      funext k d
      show k0_pay1 (F := Ideal) (iblk m c 1 ⟨n + 1, hn⟩) (ix2 k d) = V m c main_arg1 (ix3 b k d)
      refine (narrowed_apply _ k d).trans ?_
      exact keys_read m c ⟨n + 1, hn⟩ k d b hb
    · rw [outsAt0_B m c ⟨n + 1, hn⟩ h0]
      dsimp only
      unfold sout0_B_0
      have h0' : ¬(n + 1) % 8 = 0 := h0
      exact ih (Nat.lt_of_succ_lt hn) b (by omega)

/-! ## What a point writes back -/

/-- A rank-3 index whose first axis has one coordinate is (0, its second coordinate, its third). -/
private theorem unit_lead {n1 n2 : ℕ} (y : (⟨3, ![1, n1, n2]⟩ : Shape).Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The weight block at any of its indices: the attention weight of the key on the last axis for the query row on the
    middle axis. -/
theorem weights_block_at (x0 : Vec Ideal S1x256x1024 .f32) (x1 : Vec Ideal S1x2048x1024 .f32) (y : S1x256x2048.Idx) :
    k0_pay3 (F := Ideal) x0 x1 y = align (qRow x0 (y 1)) (kvMat x1) (y 2) :=
  (congrArg (k0_pay3 (F := Ideal) x0 x1) (unit_lead y)).trans (weights_block_apply x0 x1 (y 1) (y 2))

/-- The context block at any of its indices: the context of the query row on the middle axis, at the feature on the
    last axis, with the carried buffer as values. -/
theorem context_block_at (x0 : Vec Ideal S1x256x1024 .f32) (x1 : Vec Ideal S1x2048x1024 .f32) (xs : Vec Ideal S2048x1024 .bf16)
    (y : S1x256x1024.Idx) :
    k0_pay4 (F := Ideal) x0 x1 xs y = context (qRow x0 (y 1)) (kvMat x1) (bufMat xs) (y 2) :=
  (congrArg (k0_pay4 (F := Ideal) x0 x1 xs) (unit_lead y)).trans (context_block_apply x0 x1 xs (y 1) (y 2))

/-- What point t writes back to the weights array is block t of `Align` of the arguments: index (0, r, k) of the block
    sits at (t / 8, 256·(t % 8) + r, k) of the array, the query row there is row r of the point's query block, and the
    batch's keys are the point's key/value block. -/
theorem flushed_weights (c : Dev nD) (t : Fin cfg0.N) :
    (dats m 0 c).flushed 3 t = ((cfg0.win 3).blk t).view.read (Elt Ideal) (Align (V m c main_arg0) (V m c main_arg1)) := by
  obtain ⟨-, -, -, -, -, -, -, -, -, e0, e1, e2⟩ := idx_facts t
  rw [Value.flushed3, (point_outputs m c t).2]
  funext j
  have hj0 : (j 0).val < 1 := (j 0).isLt
  have hj1 : (j 1).val < 256 := (j 1).isLt
  have hj2 : (j 2).val < 2048 := (j 2).isLt
  show k0_pay3 (F := Ideal) (iblk m c 0 t) (iblk m c 1 t) ((cfg0.win 3).xinj (grid0.coords t) j) = Align (V m c main_arg0) (V m c main_arg1) (((cfg0.win 3).blk t).view.emb j)
  refine (weights_block_at (iblk m c 0 t) (iblk m c 1 t) ((cfg0.win 3).xinj (grid0.coords t) j)).trans ?_
  have hA : Align (V m c main_arg0) (V m c main_arg1) (((cfg0.win 3).blk t).view.emb j)
      = align (rowOf (V m c main_arg0) ((((cfg0.win 3).blk t).view.emb j) 0) ((((cfg0.win 3).blk t).view.emb j) 1)) (batchOf (V m c main_arg1) ((((cfg0.win 3).blk t).view.emb j) 0)) ((((cfg0.win 3).blk t).view.emb j) 2) := rfl
  have hb : ((((cfg0.win 3).blk t).view.emb j) 0).val = t.val / 8 := by
    show win0_3.index t (0 : Fin 3) * 1 + 1 * (j 0).val = t.val / 8; omega
  have hr : ((((cfg0.win 3).blk t).view.emb j) 1).val = t.val % 8 * 256 + (j 1).val := by
    show win0_3.index t (1 : Fin 3) * 256 + 1 * (j 1).val = t.val % 8 * 256 + (j 1).val; omega
  have hk : ((cfg0.win 3).xinj (grid0.coords t) j) 2 = (((cfg0.win 3).blk t).view.emb j) 2 := Fin.ext (by
    show (j 2).val = win0_3.index t (2 : Fin 3) * 2048 + 1 * (j 2).val; omega)
  have hq : qRow (iblk m c 0 t) (((cfg0.win 3).xinj (grid0.coords t) j) 1) = rowOf (V m c main_arg0) ((((cfg0.win 3).blk t).view.emb j) 0) ((((cfg0.win 3).blk t).view.emb j) 1) :=
    funext fun d => query_read m c t (((cfg0.win 3).xinj (grid0.coords t) j) 1) d ((((cfg0.win 3).blk t).view.emb j) 0) ((((cfg0.win 3).blk t).view.emb j) 1) hb hr
  have hkv : kvMat (iblk m c 1 t) = batchOf (V m c main_arg1) ((((cfg0.win 3).blk t).view.emb j) 0) :=
    funext fun k => funext fun d => keys_read m c t k d ((((cfg0.win 3).blk t).view.emb j) 0) hb
  rw [hA, hq, hkv, hk]

/-- What point t writes back to the context array is block t of `Context` of the arguments: as for the weights, and the
    carried buffer the point multiplies with is the key/value block of its own batch. -/
theorem flushed_context (c : Dev nD) (t : Fin cfg0.N) :
    (dats m 0 c).flushed 2 t = ((cfg0.win 2).blk t).view.read (Elt Ideal) (Context (V m c main_arg0) (V m c main_arg1)) := by
  obtain ⟨-, -, -, -, -, -, e0, e1, e2, -⟩ := idx_facts t
  rw [Value.flushed2, (point_outputs m c t).1]
  funext j
  have hj0 : (j 0).val < 1 := (j 0).isLt
  have hj1 : (j 1).val < 256 := (j 1).isLt
  have hj2 : (j 2).val < 1024 := (j 2).isLt
  show k0_pay4 (F := Ideal) (iblk m c 0 t) (iblk m c 1 t) (outsAt0 m c t.val t.isLt).2.2 ((cfg0.win 2).xinj (grid0.coords t) j) = Context (V m c main_arg0) (V m c main_arg1) (((cfg0.win 2).blk t).view.emb j)
  refine (context_block_at (iblk m c 0 t) (iblk m c 1 t) (outsAt0 m c t.val t.isLt).2.2 ((cfg0.win 2).xinj (grid0.coords t) j)).trans ?_
  have hA : Context (V m c main_arg0) (V m c main_arg1) (((cfg0.win 2).blk t).view.emb j)
      = context (rowOf (V m c main_arg0) ((((cfg0.win 2).blk t).view.emb j) 0) ((((cfg0.win 2).blk t).view.emb j) 1)) (batchOf (V m c main_arg1) ((((cfg0.win 2).blk t).view.emb j) 0)) (batchOf (V m c main_arg1) ((((cfg0.win 2).blk t).view.emb j) 0)) ((((cfg0.win 2).blk t).view.emb j) 2) := rfl
  have hb : ((((cfg0.win 2).blk t).view.emb j) 0).val = t.val / 8 := by
    show win0_2.index t (0 : Fin 3) * 1 + 1 * (j 0).val = t.val / 8; omega
  have hr : ((((cfg0.win 2).blk t).view.emb j) 1).val = t.val % 8 * 256 + (j 1).val := by
    show win0_2.index t (1 : Fin 3) * 256 + 1 * (j 1).val = t.val % 8 * 256 + (j 1).val; omega
  have hk : ((cfg0.win 2).xinj (grid0.coords t) j) 2 = (((cfg0.win 2).blk t).view.emb j) 2 := Fin.ext (by
    show (j 2).val = win0_2.index t (2 : Fin 3) * 1024 + 1 * (j 2).val; omega)
  have hq : qRow (iblk m c 0 t) (((cfg0.win 2).xinj (grid0.coords t) j) 1) = rowOf (V m c main_arg0) ((((cfg0.win 2).blk t).view.emb j) 0) ((((cfg0.win 2).blk t).view.emb j) 1) :=
    funext fun d => query_read m c t (((cfg0.win 2).xinj (grid0.coords t) j) 1) d ((((cfg0.win 2).blk t).view.emb j) 0) ((((cfg0.win 2).blk t).view.emb j) 1) hb hr
  have hkv : kvMat (iblk m c 1 t) = batchOf (V m c main_arg1) ((((cfg0.win 2).blk t).view.emb j) 0) :=
    funext fun k => funext fun d => keys_read m c t k d ((((cfg0.win 2).blk t).view.emb j) 0) hb
  have hs : bufMat (outsAt0 m c t.val t.isLt).2.2 = batchOf (V m c main_arg1) ((((cfg0.win 2).blk t).view.emb j) 0) := carried_eq m c t.val t.isLt ((((cfg0.win 2).blk t).view.emb j) 0) hb
  rw [hA, hq, hkv, hs, hk]

/-! ## The blocks tile the arrays -/

/-- Every index (b, r, k) of the weights array lies in the block of point 8·b + r / 256. -/
theorem weights_cover (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  have hN : cfg0.N = 64 := N_0
  obtain ⟨t, ht⟩ : ∃ t : Fin cfg0.N, t.val = (i 0).val * 8 + (i 1).val / 256 := ⟨⟨_, by omega⟩, rfl⟩
  obtain ⟨-, -, -, -, -, -, -, -, -, e0, e1, e2⟩ := idx_facts t
  refine ⟨t, flush0_3 t, ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- Every index (b, r, d) of the context array lies in the block of point 8·b + r / 256. -/
theorem context_cover (i : S8x2048x1024.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1024 := (i 2).isLt
  have hN : cfg0.N = 64 := N_0
  obtain ⟨t, ht⟩ : ∃ t : Fin cfg0.N, t.val = (i 0).val * 8 + (i 1).val / 256 := ⟨⟨_, by omega⟩, rfl⟩
  obtain ⟨-, -, -, -, -, -, e0, e1, e2, -⟩ := idx_facts t
  refine ⟨t, flush0_2 t, ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-! ## The result arrays and the run -/

/-- After the last point the weights array is `Align` of the arguments. -/
theorem weights_final (c : Dev nD) : (dats m 0 c).arrAt 3 cfg0.N = Align (V m c main_arg0) (V m c main_arg1) :=
  (dats m 0 c).arrAt_eq_of_cover 3 (Align (V m c main_arg0) (V m c main_arg1)) (fun t _ => flushed_weights m c t) weights_cover

/-- After the last point the context array is `Context` of the arguments. -/
theorem context_final (c : Dev nD) : (dats m 0 c).arrAt 2 cfg0.N = Context (V m c main_arg0) (V m c main_arg1) :=
  (dats m 0 c).arrAt_eq_of_cover 2 (Context (V m c main_arg0) (V m c main_arg1)) (fun t _ => flushed_context m c t) context_cover

/-- Every weakly fair execution of the kernel terminates with its first result at `Context` and its second at `Align`
    of the two arguments as launched, and with the arguments unchanged. -/
theorem run : θ_run defs (onTc (τ := τ) (main (F := Ideal))) ⟨m, fun _ => 0, ρ⟩ fun r => ∀ c : Dev nD,
      r.2.mem ((c : Thread nD τ).loc main_v0_0)
        = Context (m ((c : Thread nD τ).loc main_arg0)) (m ((c : Thread nD τ).loc main_arg1))
      ∧ r.2.mem ((c : Thread nD τ).loc main_v0_1)
        = Align (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (context_final m c), (h c).2.1.trans (weights_final m c),
      (h c).2.2.1, (h c).2.2.2⟩)
    (Value.run_blocks m ρ)

end Cert.KernelIdeal.AttnValue

end
-- ==== Proof.ReferenceValue.lean ====
/-
  The reference's two results on the extended reals are the attention weights and the context vectors of
  `RowAttention`: its batched inner products are the logits, its softmax subtracts the row's maximum (taken once more
  against −∞, which changes nothing), exponentiates, and divides by the row's sum, and its second batched product sums
  the weights against the same key/value array.
-/
import proofs.«136890_j17815524344562_2_alg».proof.Proof.Gen.ReferenceIdeal.Read
import proofs.«136890_j17815524344562_2_alg».proof.Proof.RowAttention
import proofs.«136890_j17815524344562_2_alg».proof.Proof.LibHostMaxForms

noncomputable section

namespace Cert.ReferenceIdeal.RefValue

open Cert.ReferenceIdeal Cert.ReferenceIdeal.Gen Cert.ReferenceIdeal.Read Idealize.ShloMosaic Idealize.ShloMosaic.ValueIdx Cert.RowAttention

/-- The first product at (b, r, k) is the logit of query row r of batch b against key k of the same batch. -/
private theorem logits_at (x0 x1 : (⟨S8x2048x1024, .f32⟩ : BufTy).Contents (Elt Ideal)) (b : Fin 8) (r k : Fin 2048) :
    val_main_v0 (F := Ideal) x0 x1 (ix3 b r k) = score (rowOf x0 b r) (batchOf x1 b) k := by
  rw [val_main_v0_apply]
  unfold score rowOf batchOf
  refine Finset.sum_congr rfl fun d _ => ?_
  have el : lidx_main_v0 (ix3 b r k) d = ix3 b r d :=
    funext fun a => Fin.ext (by match a with | ⟨0, _⟩ => rfl | ⟨1, _⟩ => rfl | ⟨2, _⟩ => rfl)
  have er : ridx_main_v0 (ix3 b r k) d = ix3 b k d :=
    funext fun a => Fin.ext (by match a with | ⟨0, _⟩ => rfl | ⟨1, _⟩ => rfl | ⟨2, _⟩ => rfl)
  rw [el, er]

/-- The max-reduce at (b, r) is the row's largest logit. -/
private theorem rowmax_at (x0 x1 : (⟨S8x2048x1024, .f32⟩ : BufTy).Contents (Elt Ideal)) (b : Fin 8) (r : Fin 2048) :
    val_main_v1 (F := Ideal) x0 x1 (ix2 b r) = rowMax (rowOf x0 b r) (batchOf x1 b) := by
  unfold val_main_v1
  rw [hostReduceMax3_last (val_main_v0 (F := Ideal) x0 x1) (val_main_cst (F := Ideal))
    Facts₀.reducesTo_S8x2048x2048_S8x2048_d2 (by decide) Facts₀.h_S_ b r]
  unfold rowMax
  rw [val_main_cst_apply, Ideal.ofBits_def]
  exact congrArg (fun f : Fin 2048 → EReal => (Finset.univ : Finset (Fin 2048)).fold max (Ideal.ofBits .f32 0xFF800000#32) f)
    (funext fun k => logits_at x0 x1 b r k)

/-- The maximum of the broadcast −∞ with the max-reduce, at (b, r), is still the row's largest logit. -/
private theorem shift_at (x0 x1 : (⟨S8x2048x1024, .f32⟩ : BufTy).Contents (Elt Ideal)) (b : Fin 8) (r : Fin 2048) :
    val_main_v3 (F := Ideal) x0 x1 (ix2 b r) = rowMax (rowOf x0 b r) (batchOf x1 b) := by
  rw [val_main_v3_apply, val_main_v2_apply, val_main_cst_0_apply, Ideal.maximumf_def, Ideal.ofBits_def, rowmax_at,
    max_init_rowMax]

/-- The shift broadcast back over the keys: at (b, r, k) it is the row's largest logit, whatever k. -/
private theorem shift_bcast_at (x0 x1 : (⟨S8x2048x1024, .f32⟩ : BufTy).Contents (Elt Ideal)) (b : Fin 8) (r k : Fin 2048) :
    val_main_v5 (F := Ideal) x0 x1 (ix3 b r k) = rowMax (rowOf x0 b r) (batchOf x1 b) := by
  have e : idx_main_v4 (idx_main_v5 (ix3 b r k)) = ix2 b r :=
    funext fun a => Fin.ext (by match a with | ⟨0, _⟩ => rfl | ⟨1, _⟩ => rfl)
  rw [val_main_v5_apply, val_main_v4_apply, e, shift_at]

/-- The exponential of the shifted logit at (b, r, k) is the unnormalised weight of key k. -/
private theorem weight_at (x0 x1 : (⟨S8x2048x1024, .f32⟩ : BufTy).Contents (Elt Ideal)) (b : Fin 8) (r k : Fin 2048) :
    val_main_v7 (F := Ideal) x0 x1 (ix3 b r k) = weight (rowOf x0 b r) (batchOf x1 b) k := by
  rw [val_main_v7_apply, val_main_v6_apply, logits_at, shift_bcast_at, Ideal.subf_def, Ideal.hostUnary_exp_def]
  rfl

/-- The add-reduce at (b, r), started from zero, is the sum of the row's weights. -/
private theorem rowsum_at (x0 x1 : (⟨S8x2048x1024, .f32⟩ : BufTy).Contents (Elt Ideal)) (b : Fin 8) (r : Fin 2048) :
    val_main_v8 (F := Ideal) x0 x1 (ix2 b r) = rowSum (rowOf x0 b r) (batchOf x1 b) := by
  rw [val_main_v8_apply, val_main_cst_1_apply, Ideal.ofBits_def, Ideal.ofBits_zero_f32, zero_add]
  unfold rowSum
  refine Finset.sum_congr rfl fun k _ => ?_
  have e : idx_main_v8 (ix2 b r) k = ix3 b r k :=
    funext fun a => Fin.ext (by match a with | ⟨0, _⟩ => rfl | ⟨1, _⟩ => rfl | ⟨2, _⟩ => rfl)
  rw [e, weight_at]

/-- The row's sum broadcast back over the keys. -/
private theorem rowsum_bcast_at (x0 x1 : (⟨S8x2048x1024, .f32⟩ : BufTy).Contents (Elt Ideal)) (b : Fin 8) (r k : Fin 2048) :
    val_main_v10 (F := Ideal) x0 x1 (ix3 b r k) = rowSum (rowOf x0 b r) (batchOf x1 b) := by
  have e : idx_main_v9 (idx_main_v10 (ix3 b r k)) = ix2 b r :=
    funext fun a => Fin.ext (by match a with | ⟨0, _⟩ => rfl | ⟨1, _⟩ => rfl)
  rw [val_main_v10_apply, val_main_v9_apply, e, rowsum_at]

/-- The reference's softmax is the attention weights. -/
theorem align_eq (x0 x1 : (⟨S8x2048x1024, .f32⟩ : BufTy).Contents (Elt Ideal)) :
    val_main_v11 (F := Ideal) x0 x1 = Align x0 x1 := by
  funext i
  obtain ⟨b, r, k, rfl⟩ : ∃ (b : Fin 8) (r k : Fin 2048), i = ix3 b r k := ⟨i 0, i 1, i 2, eq_ix3 i⟩
  rw [val_main_v11_apply, weight_at, rowsum_bcast_at, Ideal.hostDivf_def, Align_apply]
  rfl

/-- The reference's second product is the context vectors. -/
theorem context_eq (x0 x1 : (⟨S8x2048x1024, .f32⟩ : BufTy).Contents (Elt Ideal)) :
    val_main_v12 (F := Ideal) x0 x1 = Context x0 x1 := by
  funext i
  obtain ⟨b, r, d, rfl⟩ : ∃ (b : Fin 8) (r : Fin 2048) (d : Fin 1024), i = ix3 b r d := ⟨i 0, i 1, i 2, eq_ix3 i⟩
  rw [val_main_v12_apply, align_eq, Context_apply]
  unfold context
  refine Finset.sum_congr rfl fun k _ => ?_
  have el : lidx_main_v12 (ix3 b r d) k = ix3 b r k :=
    funext fun a => Fin.ext (by match a with | ⟨0, _⟩ => rfl | ⟨1, _⟩ => rfl | ⟨2, _⟩ => rfl)
  have er : ridx_main_v12 (ix3 b r d) k = ix3 b k d :=
    funext fun a => Fin.ext (by match a with | ⟨0, _⟩ => rfl | ⟨1, _⟩ => rfl | ⟨2, _⟩ => rfl)
  rw [el, er, Align_apply]
  rfl

end Cert.ReferenceIdeal.RefValue

end
-- ==== Proof.lean ====
/-
  Unscaled dot-product attention over 8 batches of 2048 queries and 2048 keys of 1024 features, with the keys also
  serving as values: a kernel that walks a grid of 8 × 8 query tiles against its plain reference.

  Both programs compute, for query row q of batch b,
    score k   = ∑ d, Q[b, q, d] · KV[b, k, d],
    align k   = exp (score k − max over k' of score k') / ∑ k', exp (score k' − max over k'' of score k''),
    context d = ∑ k, align k · KV[b, k, d],
  and return the context vectors and the attention weights (`RowAttention.Context`, `RowAttention.Align`).  On the
  extended reals the two sides are the same expression, operation for operation: the kernel's matrix products into a
  zero accumulator are the reference's batched inner products, its lane maximum from −∞ and lane sum from 0 are the
  reference's reductions (the reference takes the maximum with −∞ once more, which changes nothing), and a change of
  float format is the identity, so the narrowed copy of a batch's key/value block that the kernel writes at the batch's
  first tile and reuses at the other seven is the block itself.  No law of arithmetic is needed beyond that, and so the
  finiteness of the inputs is never used.

  The kernel's idealization rewrote no operation, so that conjunct is `True`.  The three frames are the generated ones
  (the reference's is its generated run with the results dropped).
-/
import proofs.«136890_j17815524344562_2_alg».proof.Defs
import proofs.«136890_j17815524344562_2_alg».proof.Proof.Gen.Kernel
import proofs.«136890_j17815524344562_2_alg».proof.Proof.Gen.Kernel.Skeleton
import proofs.«136890_j17815524344562_2_alg».proof.Proof.Gen.Kernel.Launch
import proofs.«136890_j17815524344562_2_alg».proof.Proof.Gen.Kernel.Points
import proofs.«136890_j17815524344562_2_alg».proof.Proof.Gen.Kernel.Frame
import proofs.«136890_j17815524344562_2_alg».proof.Proof.Gen.KernelIdeal
import proofs.«136890_j17815524344562_2_alg».proof.Proof.Gen.KernelIdeal.Skeleton
import proofs.«136890_j17815524344562_2_alg».proof.Proof.Gen.KernelIdeal.Launch
import proofs.«136890_j17815524344562_2_alg».proof.Proof.Gen.KernelIdeal.Points
import proofs.«136890_j17815524344562_2_alg».proof.Proof.Gen.KernelIdeal.Frame
import proofs.«136890_j17815524344562_2_alg».proof.Proof.Gen.ReferenceIdeal
import proofs.«136890_j17815524344562_2_alg».proof.Proof.Gen.KernelIdeal.Value
import proofs.«136890_j17815524344562_2_alg».proof.Proof.Gen.ReferenceIdeal.Run
import proofs.«136890_j17815524344562_2_alg».proof.Proof.Gen.ReferenceIdeal.Read
import proofs.«136890_j17815524344562_2_alg».proof.Proof.Gen.Pre_finite_inputs
import proofs.«136890_j17815524344562_2_alg».proof.Proof.AttnValue
import proofs.«136890_j17815524344562_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with its arguments unchanged. -/
theorem frame_reference_ideal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the two arguments, the kernel ends with its results at `Context` and `Align` of its
    arguments, and the reference with its results at its operations' composed term, which is `Context` and `Align` of
    the same arguments. -/
theorem algebraic : Cert.algebraic_KernelIdeal_ReferenceIdeal := by
  intro m ρ m' ρ' _ hagree
  refine ⟨fun c => Cert.RowAttention.Context (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.RowAttention.Align (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.AttnValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.ReferenceIdeal.RefValue.context_eq, (hagree c).1,
      (hagree c).2]
  · rw [(h c).2.1, Cert.ReferenceIdeal.Read.val_main_v11_eq, Cert.ReferenceIdeal.RefValue.align_eq, (hagree c).1,
      (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
